-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x32x32 : Shape := ⟨4, ![16, 512, 32, 32]⟩
abbrev S512x32x32 : Shape := ⟨3, ![512, 32, 32]⟩
abbrev S_ : Shape := ⟨0, ![]⟩

class Facts : Prop where
  bcast_S_S16x512x32x32 : S_.BroadcastsInDim S16x512x32x32 (![] : Fin 0 → Fin S16x512x32x32.rank)
  reducesTo_S16x512x32x32_S_d0_1_2_3 : S16x512x32x32.ReducesTo [0, 1, 2, 3] S_
  h_S_ : 0 < S_.numel
  bcast_S_S512x32x32 : S_.BroadcastsInDim S512x32x32 (![] : Fin 0 → Fin S512x32x32.rank)
  reducesTo_S512x32x32_S_d0_1_2 : S512x32x32.ReducesTo [0, 1, 2] S_

variable [Facts]

def fn {F : FTy → Type} [FloatOps F] (main_arg0 : FVec F S16x512x32x32 .f32) (main_arg1 : FVec F S512x32x32 .f32) : IVec S_ 1 :=
  let main_v0 : FVec F S16x512x32x32 .f32 := Host.absf main_arg0
  let main_cst : FVec F S_ .f32 := constant S_ .f32 0x7F800000#32
  let main_v1 : FVec F S16x512x32x32 .f32 := broadcastInDim S16x512x32x32 ![] bcast_S_S16x512x32x32 main_cst
  let main_v2 : IVec S16x512x32x32 1 := cmpf .olt main_v0 main_v1
  let main_c : IVec S_ 1 := constantI S_ 1 1#1
  let main_v3 : IVec S_ 1 := (fun x v => Host.reduce IntOp.andi x v reducesTo_S16x512x32x32_S_d0_1_2_3 h_S_) main_v2 main_c
  let main_v4 : FVec F S512x32x32 .f32 := Host.absf main_arg1
  let main_cst_0 : FVec F S_ .f32 := constant S_ .f32 0x7F800000#32
  let main_v5 : FVec F S512x32x32 .f32 := broadcastInDim S512x32x32 ![] bcast_S_S512x32x32 main_cst_0
  let main_v6 : IVec S512x32x32 1 := cmpf .olt main_v4 main_v5
  let main_c_1 : IVec S_ 1 := constantI S_ 1 1#1
  let main_v7 : IVec S_ 1 := (fun x v => Host.reduce IntOp.andi x v reducesTo_S512x32x32_S_d0_1_2 h_S_) main_v6 main_c_1
  let main_v8 : IVec S_ 1 := andi main_v3 main_v7
  main_v8
-- ==== Kernel.lean ====
abbrev S16x512x32x32 : Shape := ⟨4, ![16, 512, 32, 32]⟩
abbrev S512x32x32 : Shape := ⟨3, ![512, 32, 32]⟩
abbrev S16x512x1024 : Shape := ⟨3, ![16, 512, 1024]⟩
abbrev S16x1024x512 : Shape := ⟨3, ![16, 1024, 512]⟩
abbrev S1024x512 : Shape := ⟨2, ![1024, 512]⟩
abbrev S1x512x1024 : Shape := ⟨3, ![1, 512, 1024]⟩
abbrev S1x1024x512 : Shape := ⟨3, ![1, 1024, 512]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x512x32x32, .f32⟩
  | .hbm, ⟨1, _⟩ => ⟨S512x32x32, .f32⟩
  | .hbm, ⟨2, _⟩ => ⟨S16x512x1024, .f32⟩
  | .hbm, ⟨3, _⟩ => ⟨S16x1024x512, .f32⟩
  | .hbm, ⟨4, _⟩ => ⟨S1024x512, .f32⟩
  | .hbm, ⟨5, _⟩ => ⟨S16x1024x512, .f32⟩
  | .hbm, ⟨6, _⟩ => ⟨S16x512x32x32, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x512, .f32⟩
  | .local _ .vmem, ⟨3, _⟩ => ⟨S1x1024x512, .f32⟩
  | .local _ .vmem, ⟨4, _⟩ => ⟨S1024x512, .f32⟩
  | .local _ .vmem, ⟨5, _⟩ => ⟨S1x1024x512, .f32⟩
  | .local _ .vmem, ⟨6, _⟩ => ⟨S1x1024x512, .f32⟩
  | _, _ => ⟨S16x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x512x32x32_S16x512x1024 : S16x512x32x32.ShapeCasts S16x512x1024
  shapeCasts_S16x512x32x32_S16x1024x512 : S16x512x32x32.ShapeCasts S16x1024x512
  shapeCasts_S512x32x32_S1024x512 : S512x32x32.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  transposes_S512x1024_p1_0_S1024x512 : S512x1024.Transposes [1, 0] S1024x512
  reduces_S1024x1024_S1024 : S1024x1024.Reduces [0] S1024
  shapeCasts_S1024_S1x1024 : S1024.ShapeCasts S1x1024
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  shapeCasts_S16x1024x512_S16x512x32x32 : S16x1024x512.ShapeCasts S16x512x32x32
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x512x1024.size a
  hwx0_0 : ∀ i : grid0.Coords, EltTy.bits .f32 = 32 ∨ (Rect.block (s := S16x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .f32 = 32 ∨ (Rect.block (s := S16x1024x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S16x1024x512.size a
  hwx0_3 : ∀ i : grid0.Coords, EltTy.bits .f32 = 32 ∨ (Rect.block (s := S16x1024x512) S1x1024x512.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x32x32 : Shape := ⟨4, ![16, 512, 32, 32]⟩
abbrev S512x32x32 : Shape := ⟨3, ![512, 32, 32]⟩
abbrev S16x512x1024 : Shape := ⟨3, ![16, 512, 1024]⟩
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩
abbrev S16x1024x512 : Shape := ⟨3, ![16, 1024, 512]⟩
abbrev S1x512x32x32 : Shape := ⟨4, ![1, 512, 32, 32]⟩

abbrev nBuf : Space → Nat
  | .hbm => 24
  | .vmem => 0
  | .smem => 0
  | _ => 0

abbrev bufTy : (tb : Table) → Fin (tcTables nBuf tb) → BufTy
  | .hbm, ⟨0, _⟩ => ⟨S16x512x32x32, .f32⟩
  | .hbm, ⟨1, _⟩ => ⟨S512x32x32, .f32⟩
  | .hbm, ⟨2, _⟩ => ⟨S16x512x1024, .f32⟩
  | .hbm, ⟨3, _⟩ => ⟨S16x1024x1024, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S16x1024x1, .f32⟩
  | .hbm, ⟨10, _⟩ => ⟨S16x1024x1024, .f32⟩
  | .hbm, ⟨11, _⟩ => ⟨S16x1024x1024, .f32⟩
  | .hbm, ⟨12, _⟩ => ⟨S16x1024x1024, .f32⟩
  | .hbm, ⟨13, _⟩ => ⟨S_, .f32⟩
  | .hbm, ⟨14, _⟩ => ⟨S16x1024, .f32⟩
  | .hbm, ⟨15, _⟩ => ⟨S16x1024x1, .f32⟩
  | .hbm, ⟨16, _⟩ => ⟨S16x1024x1024, .f32⟩
  | .hbm, ⟨17, _⟩ => ⟨S16x1024x1024, .f32⟩
  | .hbm, ⟨18, _⟩ => ⟨S16x1024x512, .f32⟩
  | .hbm, ⟨19, _⟩ => ⟨S16x512x32x32, .f32⟩
  | .hbm, ⟨20, _⟩ => ⟨S1x512x32x32, .f32⟩
  | .hbm, ⟨21, _⟩ => ⟨S16x512x32x32, .f32⟩
  | .hbm, ⟨22, _⟩ => ⟨S16x512x32x32, .f32⟩
  | .hbm, ⟨23, _⟩ => ⟨S16x512x32x32, .f32⟩
  | _, _ => ⟨S16x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  shapeCasts_S16x512x32x32_S16x512x1024 : S16x512x32x32.ShapeCasts S16x512x1024
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  shapeCasts_S16x1024x512_S16x512x32x32 : S16x1024x512.ShapeCasts S16x512x32x32
  bcast_S512x32x32_S1x512x32x32_1_2_3 : S512x32x32.BroadcastsInDim S1x512x32x32 (![1, 2, 3] : Fin 3 → Fin S1x512x32x32.rank)
  bcast_S1x512x32x32_S16x512x32x32_0_1_2_3 : S1x512x32x32.BroadcastsInDim S16x512x32x32 (![0, 1, 2, 3] : Fin 4 → Fin S16x512x32x32.rank)
  dot_S16x512x1024_S16x512x1024_S16x1024x1024_1_1_2_2_0_0_wf : DotDims.WF S16x512x1024 S16x512x1024 S16x1024x1024 [1] [1] [2] [2] [0] [0]
  dot_S16x1024x1024_S16x512x1024_S16x1024x512_1_2_2_1_0_0_wf : DotDims.WF S16x1024x1024 S16x512x1024 S16x1024x512 [1] [2] [2] [1] [0] [0]

variable [Facts₀]

def dot_S16x512x1024_S16x512x1024_S16x1024x1024_1_1_2_2_0_0 : DotDims S16x512x1024 S16x512x1024 S16x1024x1024 where
  lhsContracting := [1]
  rhsContracting := [1]
  lhsNonContracting := [2]
  rhsNonContracting := [2]
  lhsBatch := [0]
  rhsBatch := [0]
  wf := dot_S16x512x1024_S16x512x1024_S16x1024x1024_1_1_2_2_0_0_wf
def dot_S16x1024x1024_S16x512x1024_S16x1024x512_1_2_2_1_0_0 : DotDims S16x1024x1024 S16x512x1024 S16x1024x512 where
  lhsContracting := [1]
  rhsContracting := [2]
  lhsNonContracting := [2]
  rhsNonContracting := [1]
  lhsBatch := [0]
  rhsBatch := [0]
  wf := dot_S16x1024x1024_S16x512x1024_S16x1024x512_1_2_2_1_0_0_wf

class Facts : Prop extends Facts₀ where

variable [Facts]
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibColumnSoftmax.lean ====
/-
  Softmax down the columns of a symmetric matrix is softmax along its rows, transposed.

  For a matrix `x` with `C` rows and `N` columns over the extended reals, let `E i j = ∑ c, x c i * x c j` be the
  Gram matrix of its columns. `E` is symmetric because the product of two extended reals commutes. One program
  normalises `exp (E j k - max over the column k)` by the column's sum and contracts the result with `x` over `k`;
  the other normalises `exp (E i j - max over the row i)` by the row's sum and contracts over `i`. Row `k` of a
  symmetric matrix is its column `k`, so the two maxima agree, the two sums agree, and the two contractions are one
  sum term by term. Nothing is asked of the entries: only commutativity of the product is used, and the running
  maximum is never below the value it starts from, so taking the maximum with that value once more changes nothing.
  The exponential and the quotient are left as arbitrary functions: the law does not look inside them.
-/
import Idealize.ShloMosaic.PureOps.Ideal.Laws

noncomputable section

open scoped BigOperators

namespace ColumnSoftmax

variable {N C : ℕ}

/-- The Gram matrix of the columns of `x`. -/
def gram (x : Fin C → Fin N → EReal) (i j : Fin N) : EReal := ∑ c, x c i * x c j

/-- It is symmetric: each term is a product of two extended reals, which commutes. -/
theorem gram_symm (x : Fin C → Fin N → EReal) (i j : Fin N) : gram x i j = gram x j i :=
  Finset.sum_congr rfl fun c _ => mul_comm _ _

/-- The running maximum of finitely many values is never below the value it starts from. -/
theorem start_le_fold (a : EReal) (f : Fin N → EReal) : a ≤ Finset.univ.fold max a f :=
  (Finset.le_fold_max a).mpr (Or.inl le_rfl)

/-- Column form: entry `(j, c)` of `softmax-down-columns (E)` contracted with `x` over the column index. -/
def colForm (x : Fin C → Fin N → EReal) (a : EReal) (ex : EReal → EReal) (dv : EReal → EReal → EReal)
    (j : Fin N) (c : Fin C) : EReal :=
  ∑ k, dv (ex (gram x j k - Finset.univ.fold max a fun i => gram x i k))
      (∑ i, ex (gram x i k - Finset.univ.fold max a fun i' => gram x i' k)) * x c k

/-- Row form: entry `(j, c)` of `softmax-along-rows (E)`, transposed, contracted with `x` over the row index; the
    row maximum is taken once more against its start value `a`, and the row sum starts from `z`. -/
def rowForm (x : Fin C → Fin N → EReal) (a z : EReal) (ex : EReal → EReal) (dv : EReal → EReal → EReal)
    (j : Fin N) (c : Fin C) : EReal :=
  ∑ i, dv (ex (gram x i j - max a (Finset.univ.fold max a fun j' => gram x i j')))
      (z + ∑ j', ex (gram x i j' - max a (Finset.univ.fold max a fun j'' => gram x i j''))) * x c i

/-- The two forms are one function when the row sum starts from zero. -/
theorem colForm_eq_rowForm (x : Fin C → Fin N → EReal) (a z : EReal) (hz : z = 0) (ex : EReal → EReal)
    (dv : EReal → EReal → EReal) (j : Fin N) (c : Fin C) :
    colForm x a ex dv j c = rowForm x a z ex dv j c := by
  subst hz
  unfold colForm rowForm
  refine Finset.sum_congr rfl fun k _ => ?_
  have hm : (Finset.univ.fold max a fun i => gram x i k) = max a (Finset.univ.fold max a fun j' => gram x k j') := by
    rw [max_eq_right (start_le_fold a _)]
    exact congrArg (fun f => Finset.univ.fold max a f) (funext fun i => gram_symm x i k)
  rw [hm, zero_add, gram_symm x j k]
  exact congrArg (fun s => dv _ s * x c k) (Finset.sum_congr rfl fun i _ => by rw [gram_symm x i k])

end ColumnSoftmax

end
-- ==== Proof.AttnPayload.lean ====
/-
  What the attention body stores, entry by entry, over the extended reals.

  The body loads one batch's block `x0` of shape [1, 512, 1024] (channels by positions), the matching block `x19` of
  the same numbers regrouped as [1, 1024, 512], and the scale `x16` of shape [1024, 512]. Write `x c n` for
  `x0 (0, c, n)`. A change of float format is the identity here, so the body computes, in this order:
  the Gram matrix of the columns of `x`, `E i j = ∑ c, x c i * x c j` (a transposed copy of `x` times `x`, into
  zero); each column's running maximum `m k`, started from the splat value of the reduction; `exp (E i k - m k)`;
  each column's sum; the quotient; and that matrix times the transposed copy of `x`, into zero. The stored entry
  `(i, c)` is `x16 (i, c) * out (i, c) + x19 (0, i, c)`. Each stage is named below and read at an entry; the last
  theorem puts them together as the column form of `ColumnSoftmax`.
-/
import proofs.«131753_j20057497272359_2_alg».proof.Proof.Gen.KernelIdeal.Skeleton
import proofs.«131753_j20057497272359_2_alg».proof.Proof.LibMatmul
import proofs.«131753_j20057497272359_2_alg».proof.Proof.LibColumnSoftmax
import Idealize.ShloMosaic.Lib.ValueLayout
import Idealize.ShloMosaic.Lib.ValueIdx
import Idealize.ShloMosaic.PureOps.Ideal.Laws

noncomputable section

open scoped BigOperators
open Idealize.ShloMosaic Idealize.ShloMosaic.ValueIdx

namespace Cert.KernelIdeal.AttnBody

open Cert.KernelIdeal Cert.KernelIdeal.Gen

variable (x0 : Vec Ideal S1x512x1024 .f32)

/-- The batch's block as a matrix, channels by positions. -/
def xf : FVec Ideal S512x1024 .bf16 :=
  truncf .bf16 (shapeCast S512x1024 x0 shapeCasts_S1x512x1024_S512x1024) bitsLt_bf16_f32
/-- Its transpose, positions by channels. -/
def xT : FVec Ideal S1024x512 .bf16 := transpose S1024x512 [1, 0] (xf x0) transposes_S512x1024_p1_0_S1024x512
/-- The Gram matrix of the columns. -/
def energy : FVec Ideal S1024x1024 .f32 :=
  matmul dot_S1024x512_S512x1024_S1024x1024_1_0_0_1_n_n none (xT x0) (xf x0) (constant S1024x1024 .f32 0x00000000#32)
/-- Each column's maximum. -/
def colmax : FVec Ideal S1024 .f32 :=
  multiReduction .maximumf [0] S1024 (energy x0) 0xFF800000#32 reduces_S1024x1024_S1024 (.inl rfl) rfl
/-- The exponentials of the entries less their column's maximum. -/
def expo : FVec Ideal S1024x1024 .f32 :=
  exp (subf (energy x0) (broadcastTo S1024x1024 (shapeCast S1x1024 (colmax x0) shapeCasts_S1024_S1x1024) broadcasts_S1x1024_S1024x1024))
/-- Each column's sum of them. -/
def colsum : FVec Ideal S1024 .f32 :=
  multiReduction .add [0] S1024 (expo x0) 0x00000000#32 reduces_S1024x1024_S1024 (.inl rfl) rfl
/-- The normalised weights. -/
def weights : FVec Ideal S1024x1024 .bf16 :=
  truncf .bf16 (divf (expo x0) (broadcastTo S1024x1024 (shapeCast S1x1024 (colsum x0) shapeCasts_S1024_S1x1024) broadcasts_S1x1024_S1024x1024)) bitsLt_bf16_f32
/-- The weights times the transposed block. -/
def out : FVec Ideal S1024x512 .f32 :=
  matmul dot_S1024x1024_S1024x512_S1024x512_1_0_0_1_n_n none (weights x0) (xT x0) (constant S1024x512 .f32 0x00000000#32)

/-- The stored value is the stages composed: the definitions above are the body's own lines. -/
theorem pay_eq (x16 : Vec Ideal S1024x512 .f32) (x19 : Vec Ideal S1x1024x512 .f32) :
    k0_pay1 (F := Ideal) x0 x16 x19
      = shapeCast S1x1024x512 (addf (mulf (shapeCast S1024x512 x16 shapeCasts_S1024x512_S1024x512) (out x0))
          (shapeCast S1024x512 x19 shapeCasts_S1x1024x512_S1024x512)) shapeCasts_S1024x512_S1x1024x512 := rfl

/-! ## Each stage at an entry -/

theorem xf_apply (c : Fin 512) (n : Fin 1024) : xf x0 (ix2 c n) = x0 (ix3 (0 : Fin 1) c n) :=
  shapeCast_1ab_ab_apply x0 shapeCasts_S1x512x1024_S512x1024 c n

theorem xT_apply (n : Fin 1024) (c : Fin 512) : xT x0 (ix2 n c) = x0 (ix3 (0 : Fin 1) c n) :=
  (transpose_ix2_apply (xf x0) transposes_S512x1024_p1_0_S1024x512 n c).trans (xf_apply x0 c n)

theorem plain1 : PlainMatmul.IsPlain dot_S1024x512_S512x1024_S1024x1024_1_0_0_1_n_n := ⟨rfl, rfl, rfl, rfl, rfl, rfl⟩
theorem plain2 : PlainMatmul.IsPlain dot_S1024x1024_S1024x512_S1024x512_1_0_0_1_n_n := ⟨rfl, rfl, rfl, rfl, rfl, rfl⟩

/-- The block's entries as a matrix of extended reals, channels by positions. -/
def rows : Fin 512 → Fin 1024 → EReal := fun c n => x0 (ix3 (0 : Fin 1) c n)

theorem energy_apply (i j : Fin 1024) : energy x0 (ix2 i j) = ColumnSoftmax.gram (rows x0) i j :=
  (PlainMatmul.apply plain1 none (xT x0) (xf x0) i j).trans
    (Finset.sum_congr rfl fun c _ => by rw [xT_apply, xf_apply]; rfl)

/-- Inserting the row coordinate `i` above the column `k` names the entry `(i, k)`. -/
theorem lift_eq (k : Fin 1024) (i : Fin 1024) : reduces_S1024x1024_S1024.lift (ix1 k) i = ix2 i k :=
  funext fun a => Fin.ext (by match a with | ⟨0, _⟩ => rfl | ⟨1, _⟩ => rfl)

theorem colmax_apply (k : Fin 1024) :
    colmax x0 (ix1 k)
      = Finset.univ.fold max (Ideal.ofBits .f32 0xFF800000#32) fun i : Fin 1024 => ColumnSoftmax.gram (rows x0) i k :=
  (Ideal.multiReduction_maximumf_single (energy x0) 0xFF800000#32 reduces_S1024x1024_S1024 (.inl rfl) rfl (ix1 k)).trans
    (congrArg (fun f => Finset.univ.fold max (Ideal.ofBits .f32 0xFF800000#32) f)
      (funext fun i : Fin 1024 => (congrArg (energy x0) (lift_eq k i)).trans (energy_apply x0 i k)))

theorem expo_apply (i k : Fin 1024) :
    expo x0 (ix2 i k) = Ideal.exp (ColumnSoftmax.gram (rows x0) i k - colmax x0 (ix1 k)) := by
  show Ideal.exp (energy x0 (ix2 i k) - broadcastTo S1024x1024 (shapeCast S1x1024 (colmax x0) shapeCasts_S1024_S1x1024) broadcasts_S1x1024_S1024x1024 (ix2 i k)) = _
  rw [broadcastTo_1b_ab_apply, shapeCast_a_1a_apply, energy_apply]

theorem colsum_apply (k : Fin 1024) : colsum x0 (ix1 k) = ∑ i : Fin 1024, expo x0 (ix2 i k) :=
  (Ideal.multiReduction_add_single (expo x0) 0x00000000#32 reduces_S1024x1024_S1024 (.inl rfl) rfl (ix1 k)).trans
    (Finset.sum_congr rfl fun i _ => congrArg (expo x0) (lift_eq k i))

theorem weights_apply (i k : Fin 1024) :
    weights x0 (ix2 i k) = Ideal.div (expo x0 (ix2 i k)) (colsum x0 (ix1 k)) := by
  show Ideal.div (expo x0 (ix2 i k)) (broadcastTo S1024x1024 (shapeCast S1x1024 (colsum x0) shapeCasts_S1024_S1x1024) broadcasts_S1x1024_S1024x1024 (ix2 i k)) = _
  rw [broadcastTo_1b_ab_apply, shapeCast_a_1a_apply]

theorem out_apply (i : Fin 1024) (c : Fin 512) :
    out x0 (ix2 i c) = ∑ k : Fin 1024, weights x0 (ix2 i k) * rows x0 c k :=
  (PlainMatmul.apply plain2 none (weights x0) (xT x0) i c).trans
    (Finset.sum_congr rfl fun k _ => by rw [xT_apply]; rfl)

/-- The weighted sum is the column form of the softmax law. -/
theorem out_eq_colForm (i : Fin 1024) (c : Fin 512) :
    out x0 (ix2 i c) = ColumnSoftmax.colForm (rows x0) (Ideal.ofBits .f32 0xFF800000#32) Ideal.exp Ideal.div i c := by
  rw [out_apply]
  unfold ColumnSoftmax.colForm
  refine Finset.sum_congr rfl fun k _ => ?_
  rw [weights_apply, colsum_apply, expo_apply, colmax_apply]
  exact congrArg (fun s => Ideal.div _ s * rows x0 c k)
    (Finset.sum_congr rfl fun i' _ => by rw [expo_apply, colmax_apply])

/-- The stored entry `(i, c)`: the scale times the weighted sum, plus the regrouped block's entry. -/
theorem pay_apply (x16 : Vec Ideal S1024x512 .f32) (x19 : Vec Ideal S1x1024x512 .f32) (u : Fin 1) (i : Fin 1024) (c : Fin 512) :
    k0_pay1 (F := Ideal) x0 x16 x19 (ix3 u i c)
      = x16 (ix2 i c) * ColumnSoftmax.colForm (rows x0) (Ideal.ofBits .f32 0xFF800000#32) Ideal.exp Ideal.div i c
        + x19 (ix3 (0 : Fin 1) i c) := by
  rw [pay_eq, shapeCast_ab_1ab_apply, addf_apply, mulf_apply, shapeCast_self, shapeCast_1ab_ab_apply, out_eq_colForm]

end Cert.KernelIdeal.AttnBody

end
-- ==== Proof.AttnArray.lean ====
/-
  The array the attention region leaves, and the program's result.

  The grid has one point per batch. At batch `b` the body is handed block `b` of the positions-major copy of the
  input ([1, 512, 1024] out of [16, 512, 1024]), block `b` of the same numbers regrouped ([1, 1024, 512] out of
  [16, 1024, 512]) and the whole scale ([1024, 512]), and what it stores is written back as block `b` of the output
  ([1, 1024, 512] out of [16, 1024, 512]). So the output array is ONE function `wholeOut` of the three arrays:
  entry `(b, i, c)` is the body's stored entry `(0, i, c)` computed from batch `b`'s rows. Every entry of the
  output lies in the block of the point whose batch is its first coordinate, so after the run the array is
  `wholeOut` everywhere. The three arrays are reshapes of the program's two arguments, and the program's result is
  the reshape of the output array.
-/
import proofs.«131753_j20057497272359_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.AttnArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The output array as one function of the three arrays the region reads: entry `(b, i, c)` is the body's stored
    entry `(0, i, c)` on batch `b`'s block of each batched array and on the whole scale. -/
def wholeOut (a0 : S16x512x1024.Idx → Elt Ideal .f32) (a1 : S16x1024x512.Idx → Elt Ideal .f32)
    (a2 : S1024x512.Idx → Elt Ideal .f32) : S16x1024x512.Idx → Elt Ideal .f32 :=
  fun i => k0_pay1 (F := Ideal) (fun y => a0 (ix3 (i 0) (y 1) (y 2))) a2 (fun y => a1 (ix3 (i 0) (y 1) (y 2)))
    (ix3 (0 : Fin 1) (i 1) (i 2))

/-- The body's stored entry `j` on blocks that are batch `i 0`'s is `wholeOut` at `i`, when `j` and `i` agree on
    the last two coordinates. -/
theorem block_entry (a0 : S16x512x1024.Idx → Elt Ideal .f32) (a1 : S16x1024x512.Idx → Elt Ideal .f32)
    (a2 : S1024x512.Idx → Elt Ideal .f32)
    (x0 : Vec Ideal S1x512x1024 .f32) (x1 : Vec Ideal S1x1024x512 .f32) (x2 : Vec Ideal S1024x512 .f32)
    (j : S1x1024x512.Idx) (i : S16x1024x512.Idx)
    (h0 : ∀ y, x0 y = a0 (ix3 (i 0) (y 1) (y 2))) (h1 : ∀ y, x1 y = a1 (ix3 (i 0) (y 1) (y 2))) (h2 : ∀ y, x2 y = a2 y)
    (hj1 : (j 1).val = (i 1).val) (hj2 : (j 2).val = (i 2).val) :
    k0_pay1 (F := Ideal) x0 x2 x1 j = wholeOut a0 a1 a2 i := by
  obtain rfl : x0 = fun y => a0 (ix3 (i 0) (y 1) (y 2)) := funext h0
  obtain rfl : x1 = fun y => a1 (ix3 (i 0) (y 1) (y 2)) := funext h1
  obtain rfl : x2 = a2 := funext h2
  have hj : j = ix3 (0 : Fin 1) (i 1) (i 2) := funext fun a => Fin.ext (by
    match a with
    | ⟨0, _⟩ => have h : (j 0).val < 1 := (j 0).isLt; show (j 0).val = 0; omega
    | ⟨1, _⟩ => exact hj1
    | ⟨2, _⟩ => exact hj2)
  rw [hj]; rfl

/-- The printed index maps over the sixteen points: the batched windows move together along the batch axis and sit
    at block zero on the other axes; the scale's window never moves. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (1 : Fin 3) = 0 ∧ win0_3.index t (2 : Fin 3) = 0 :=
  (by decide +kernel : ∀ t : Fin grid0.N, _)

/-- Every batch is some point's. -/
theorem idx_onto : ∀ q : Fin 16, ∃ t : Fin cfg0.N, win0_3.index t = ![q.val, 0, 0] :=
  (by decide +kernel : ∀ q : Fin 16, ∃ t : Fin grid0.N, win0_3.index t = ![q.val, 0, 0])

/-- What point `t` writes back is block `t` of `wholeOut` of the arrays as the region finds them. -/
theorem flushed_eq (c : Dev nD) (t : Fin cfg0.N) :
    (dats m 0 c).flushed 3 t
      = ((cfg0.win 3).blk t).view.read (Elt Ideal) (wholeOut (V m c main_v0) (V m c main_v1) (V m c main_v2)) := by
  show (cfg0.win 3).cut (grid0.coords t) ((dats m 0 c).after 3 t) = _
  rw [after0_3]
  unfold out0_3
  rw [View.canon_unit_zero zeros3]
  simp only [View.ld_unit_zero (S := S1x512x1024) zeros3, View.ld_unit_zero (S := S1024x512) zeros2,
    View.ld_unit_zero (S := S1x1024x512) zeros3]
  obtain ⟨e00, e01, e02, e10, e11, e12, e20, e21, e31, e32⟩ := idx_facts t
  funext j
  show k0_pay1 (iblk m c 0 t) (iblk m c 2 t) (iblk m c 1 t) j
    = wholeOut (V m c main_v0) (V m c main_v1) (V m c main_v2) (((cfg0.win 3).blk t).view.emb j)
  refine block_entry (V m c main_v0) (V m c main_v1) (V m c main_v2) (iblk m c 0 t) (iblk m c 1 t) (iblk m c 2 t) j
    (((cfg0.win 3).blk t).view.emb j) ?_ ?_ ?_ ?_ ?_
  · intro y
    show V m c main_v0 (((cfg0.win 0).blk t).view.emb y) = V m c main_v0 _
    refine congrArg (V m c main_v0) (funext fun a => Fin.ext ?_)
    match a with
    | ⟨0, _⟩ =>
      show win0_0.index t (0 : Fin 3) * 1 + 1 * (y 0).val = win0_3.index t (0 : Fin 3) * 1 + 1 * (j 0).val
      have hy : (y 0).val < 1 := (y 0).isLt; have hj : (j 0).val < 1 := (j 0).isLt; omega
    | ⟨1, _⟩ => show win0_0.index t (1 : Fin 3) * 512 + 1 * (y 1).val = (y 1).val; omega
    | ⟨2, _⟩ => show win0_0.index t (2 : Fin 3) * 1024 + 1 * (y 2).val = (y 2).val; omega
  · intro y
    show V m c main_v1 (((cfg0.win 1).blk t).view.emb y) = V m c main_v1 _
    refine congrArg (V m c main_v1) (funext fun a => Fin.ext ?_)
    match a with
    | ⟨0, _⟩ =>
      show win0_1.index t (0 : Fin 3) * 1 + 1 * (y 0).val = win0_3.index t (0 : Fin 3) * 1 + 1 * (j 0).val
      have hy : (y 0).val < 1 := (y 0).isLt; have hj : (j 0).val < 1 := (j 0).isLt; omega
    | ⟨1, _⟩ => show win0_1.index t (1 : Fin 3) * 1024 + 1 * (y 1).val = (y 1).val; omega
    | ⟨2, _⟩ => show win0_1.index t (2 : Fin 3) * 512 + 1 * (y 2).val = (y 2).val; omega
  · intro y
    show V m c main_v2 (((cfg0.win 2).blk t).view.emb y) = V m c main_v2 y
    refine congrArg (V m c main_v2) (funext fun a => Fin.ext ?_)
    match a with
    | ⟨0, _⟩ => show win0_2.index t (0 : Fin 2) * 1024 + 1 * (y 0).val = (y 0).val; omega
    | ⟨1, _⟩ => show win0_2.index t (1 : Fin 2) * 512 + 1 * (y 1).val = (y 1).val; omega
  · show (j 1).val = win0_3.index t (1 : Fin 3) * 1024 + 1 * (j 1).val; omega
  · show (j 2).val = win0_3.index t (2 : Fin 3) * 512 + 1 * (j 2).val; omega

/-- An entry of the output array is in point `t`'s block iff each coordinate is in the block's range on its axis. -/
theorem mem_blk (t : Fin cfg0.N) (i : S16x1024x512.Idx) :
    i ∈ ((cfg0.win 3).blk t).view.set ↔ ∀ a : Fin 3, win0_3.index t a * S1x1024x512.size a ≤ (i a).val
      ∧ (i a).val < win0_3.index t a * S1x1024x512.size a + S1x1024x512.size a := by
  show i ∈ ((View.whole main_v3).slice (win0_3.rect t)).set ↔ _
  rw [View.set_slice_whole, Rect.mem_set_unit]
  exact Iff.rfl

/-- Every entry is in the block of the point whose batch is its first coordinate. -/
theorem cover (i : S16x1024x512.Idx) :
    ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 512 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

/-- The output array after the run. -/
theorem final (c : Dev nD) :
    (dats m 0 c).arrAt 3 cfg0.N = wholeOut (V m c main_v0) (V m c main_v1) (V m c main_v2) :=
  (dats m 0 c).arrAt_eq_of_cover 3 _ (fun t _ => flushed_eq m c t) cover

end Cert.KernelIdeal.AttnArray

end
-- ==== Proof.AttnRun.lean ====
/-
  The kernel program's run, with its result named.

  Before the region the program reshapes its first argument twice — to [16, 512, 1024] and to [16, 1024, 512] — and
  its second argument to [1024, 512]; these are the three arrays the region reads. After the region it reshapes the
  output array to [16, 512, 32, 32]. So every weakly fair execution ends with the result holding
  `kernelResult` of the two arguments: the reshape of `wholeOut` of the three reshapes.
-/
import proofs.«131753_j20057497272359_2_alg».proof.Proof.AttnArray

set_option maxRecDepth 16384

noncomputable section

namespace Cert.KernelIdeal.AttnRun

open Cert.KernelIdeal Cert.KernelIdeal.Gen Cert.KernelIdeal.AttnArray
open Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The program's result as a function of its two arguments. -/
def kernelResult (a0 : S16x512x32x32.Idx → Elt Ideal .f32) (a1 : S512x32x32.Idx → Elt Ideal .f32) :
    S16x512x32x32.Idx → Elt Ideal .f32 :=
  shapeCast S16x512x32x32
    (wholeOut (shapeCast S16x512x1024 a0 shapeCasts_S16x512x32x32_S16x512x1024)
      (shapeCast S16x1024x512 a0 shapeCasts_S16x512x32x32_S16x1024x512)
      (shapeCast S1024x512 a1 shapeCasts_S512x32x32_S1024x512))
    shapeCasts_S16x1024x512_S16x512x32x32

/-- The three arrays the region reads are reshapes of the arguments. -/
theorem V_main_v0 (c : Dev nD) :
    (V m c main_v0 : S16x512x1024.Idx → Elt Ideal .f32)
      = shapeCast S16x512x1024 (m ((c : Thread nD τ).loc main_arg0)) shapeCasts_S16x512x32x32_S16x512x1024 := by
  show StableHlo.after hostOps0 (fun b => m (c, b)) (Proc.devRef .tc main_v0) = _
  after_results; rfl
theorem V_main_v1 (c : Dev nD) :
    (V m c main_v1 : S16x1024x512.Idx → Elt Ideal .f32)
      = shapeCast S16x1024x512 (m ((c : Thread nD τ).loc main_arg0)) shapeCasts_S16x512x32x32_S16x1024x512 := by
  show StableHlo.after hostOps0 (fun b => m (c, b)) (Proc.devRef .tc main_v1) = _
  after_results; rfl
theorem V_main_v2 (c : Dev nD) :
    (V m c main_v2 : S1024x512.Idx → Elt Ideal .f32)
      = shapeCast S1024x512 (m ((c : Thread nD τ).loc main_arg1)) shapeCasts_S512x32x32_S1024x512 := by
  show StableHlo.after hostOps0 (fun b => m (c, b)) (Proc.devRef .tc main_v2) = _
  after_results; rfl

/-- The result buffer after the reshape that follows the region. -/
theorem tail_eq (c : Dev nD) :
    Pipeline.afterTail₀ cfgs (dats m) 0 (V0 m) [hostOps1] c main_v4
      = kernelResult (m ((c : Thread nD τ).loc main_arg0)) (m ((c : Thread nD τ).loc main_arg1)) := by
  unfold Pipeline.afterTail₀
  show StableHlo.after hostOps1 _ (Proc.devRef .tc main_v4) = _
  after_results
  refine (congrArg (fun A => shapeCast S16x512x32x32 A shapeCasts_S16x1024x512_S16x512x32x32)
    ((Pipeline.withArrays_arr spec0 launch0.win.arr_inj c (V0 m c) (fun w => (dats m 0 c).arrAt w cfg0.N) 3).trans
      (final m c))).trans ?_
  rw [V_main_v0, V_main_v1, V_main_v2]
  rfl

/-- Every weakly fair execution of the kernel program terminates with its result at `kernelResult` of the
    arguments, and the arguments unchanged. -/
theorem run : θ_run defs (onTc (τ := τ) (main (F := Ideal))) ⟨m, fun _ => 0, ρ⟩ fun r => ∀ c : Dev nD,
      r.2.mem ((c.tc : Thread nD τ).loc main_v4)
        = kernelResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.AttnRun

end
-- ==== Proof.RefAttn.lean ====
/-
  The reference's attention output, entry by entry, over the extended reals.

  Write `xf` for the input regrouped as [16, 512, 1024] (batch, channel, position) and, for a batch `b`,
  `x c n = xf (b, c, n)`. The reference forms the Gram matrix of the columns of `x` (a product contracting the
  channel axis), subtracts each ROW's maximum — taken from minus infinity and then once more against minus infinity —,
  exponentiates, divides by each row's sum (started from zero), and contracts the result's ROW index with `x`.
  Entry `(b, j, c)` of that product is the row form of `ColumnSoftmax` for batch `b`'s matrix.
-/
import proofs.«131753_j20057497272359_2_alg».proof.Proof.Gen.ReferenceIdeal.Read
import proofs.«131753_j20057497272359_2_alg».proof.Proof.LibColumnSoftmax
import Idealize.ShloMosaic.Lib.ValueIdx
import Idealize.ShloMosaic.PureOps.Ideal.Laws

noncomputable section

open scoped BigOperators
open Idealize.ShloMosaic Idealize.ShloMosaic.ValueIdx

namespace Cert.ReferenceIdeal.RefAttn

open Cert.ReferenceIdeal Cert.ReferenceIdeal.Gen Cert.ReferenceIdeal.Read

variable (x0 : (⟨S16x512x32x32, .f32⟩ : BufTy).Contents (Elt Ideal))

/-- Batch `b`'s matrix, channels by positions. -/
def rows (b : Fin 16) : Fin 512 → Fin 1024 → EReal := fun c n => val_main_v0 (F := Ideal) x0 (ix3 b c n)

/-- The first product: the Gram matrix of the columns of batch `b`'s matrix. -/
theorem gram_apply (b : Fin 16) (i j : Fin 1024) :
    val_main_v1 (F := Ideal) x0 (ix3 b i j) = ColumnSoftmax.gram (rows x0 b) i j := by
  rw [val_main_v1_apply]
  refine Finset.sum_congr rfl fun c _ => ?_
  have el : lidx_main_v1 (ix3 b i j) c = ix3 b c i :=
    funext fun a => Fin.ext (by match a with | ⟨0, _⟩ => rfl | ⟨1, _⟩ => rfl | ⟨2, _⟩ => rfl)
  have er : ridx_main_v1 (ix3 b i j) c = ix3 b c j :=
    funext fun a => Fin.ext (by match a with | ⟨0, _⟩ => rfl | ⟨1, _⟩ => rfl | ⟨2, _⟩ => rfl)
  rw [el, er]; rfl

/-- The shape fact of the row reductions, in the form that names the inserted coordinate. -/
theorem reduces_last : S16x1024x1024.Reduces [2] S16x1024 :=
  let ⟨h, hb⟩ := reducesTo_S16x1024x1024_S16x1024_d2
  ⟨h, by decide, hb⟩

/-- Inserting the column coordinate `k` after `(b, i)` names the entry `(b, i, k)`. -/
theorem lift_eq (b : Fin 16) (i k : Fin 1024) : reduces_last.lift (ix2 b i) k = ix3 b i k :=
  funext fun a => Fin.ext (by match a with | ⟨0, _⟩ => rfl | ⟨1, _⟩ => rfl | ⟨2, _⟩ => rfl)

/-- Each row's maximum, from minus infinity. -/
theorem rowmax_apply (b : Fin 16) (i : Fin 1024) :
    val_main_v2 (F := Ideal) x0 (ix2 b i)
      = Finset.univ.fold max (Ideal.ofBits .f32 0xFF800000#32) fun k : Fin 1024 => ColumnSoftmax.gram (rows x0 b) i k := by
  have h := Host.reduce_eq_fold_single (α := Ideal .f32) (FloatOps.maximumf (F := Ideal) (φ := .f32))
    (val_main_v1 (F := Ideal) x0 : S16x1024x1024.Idx → Ideal .f32) (val_main_cst (F := Ideal) : S_.Idx → Ideal .f32)
    reducesTo_S16x1024x1024_S16x1024_d2 reduces_last h_S_ (ix2 b i)
  have hc : val_main_cst (F := Ideal) (Shape.Idx.first h_S_) = Ideal.ofBits .f32 0xFF800000#32 := rfl
  have hf : (val_main_v1 (F := Ideal) x0 ∘ reduces_last.lift (ix2 b i))
      = fun k : Fin 1024 => ColumnSoftmax.gram (rows x0 b) i k :=
    funext fun k : Fin 1024 => (congrArg (val_main_v1 (F := Ideal) x0) (lift_eq b i k)).trans (gram_apply x0 b i k)
  rw [hc, hf] at h
  exact h

/-- The maximum as it is subtracted: taken once more against minus infinity, and the same along the row. -/
theorem shift_apply (b : Fin 16) (i k : Fin 1024) :
    val_main_v6 (F := Ideal) x0 (ix3 b i k)
      = max (Ideal.ofBits .f32 0xFF800000#32)
          (Finset.univ.fold max (Ideal.ofBits .f32 0xFF800000#32) fun k' : Fin 1024 => ColumnSoftmax.gram (rows x0 b) i k') := by
  rw [val_main_v6_apply, val_main_v5_apply, val_main_v4_apply, val_main_v3_apply]
  have e : idx_main_v5 (idx_main_v6 (ix3 b i k)) = ix2 b i :=
    funext fun a => Fin.ext (by match a with | ⟨0, _⟩ => rfl | ⟨1, _⟩ => rfl)
  rw [e, rowmax_apply]
  rfl

/-- The exponentials. -/
theorem expo_apply (b : Fin 16) (i k : Fin 1024) :
    val_main_v8 (F := Ideal) x0 (ix3 b i k)
      = Ideal.exp (ColumnSoftmax.gram (rows x0 b) i k
          - max (Ideal.ofBits .f32 0xFF800000#32)
              (Finset.univ.fold max (Ideal.ofBits .f32 0xFF800000#32) fun k' : Fin 1024 => ColumnSoftmax.gram (rows x0 b) i k')) := by
  rw [val_main_v8_apply, val_main_v7_apply, gram_apply, shift_apply]
  rfl

/-- Each row's sum of them, from zero, as it divides: the same along the row. -/
theorem rowsum_apply (b : Fin 16) (i k : Fin 1024) :
    val_main_v11 (F := Ideal) x0 (ix3 b i k)
      = Ideal.ofBits .f32 0x00000000#32 + ∑ k' : Fin 1024, val_main_v8 (F := Ideal) x0 (ix3 b i k') := by
  rw [val_main_v11_apply, val_main_v10_apply]
  have e : idx_main_v10 (idx_main_v11 (ix3 b i k)) = ix2 b i :=
    funext fun a => Fin.ext (by match a with | ⟨0, _⟩ => rfl | ⟨1, _⟩ => rfl)
  rw [e, val_main_v9_apply]
  refine congrArg₂ (· + ·) rfl (Finset.sum_congr rfl fun k' _ => ?_)
  exact congrArg (val_main_v8 (F := Ideal) x0)
    (funext fun a => Fin.ext (by match a with | ⟨0, _⟩ => rfl | ⟨1, _⟩ => rfl | ⟨2, _⟩ => rfl))

/-- The second product's entry `(b, j, c)` is the row form for batch `b`. -/
theorem out_apply (b : Fin 16) (j : Fin 1024) (c : Fin 512) :
    val_main_v13 (F := Ideal) x0 (ix3 b j c)
      = ColumnSoftmax.rowForm (rows x0 b) (Ideal.ofBits .f32 0xFF800000#32) (Ideal.ofBits .f32 0x00000000#32)
          Ideal.exp Ideal.div j c := by
  rw [val_main_v13_apply]
  unfold ColumnSoftmax.rowForm
  refine Finset.sum_congr rfl fun i _ => ?_
  have el : lidx_main_v13 (ix3 b j c) i = ix3 b i j :=
    funext fun a => Fin.ext (by match a with | ⟨0, _⟩ => rfl | ⟨1, _⟩ => rfl | ⟨2, _⟩ => rfl)
  have er : ridx_main_v13 (ix3 b j c) i = ix3 b c i :=
    funext fun a => Fin.ext (by match a with | ⟨0, _⟩ => rfl | ⟨1, _⟩ => rfl | ⟨2, _⟩ => rfl)
  rw [el, er, val_main_v12_apply, rowsum_apply, expo_apply]
  refine congrArg₂ (· * ·) (congrArg (Ideal.div _) (congrArg₂ (· + ·) rfl (Finset.sum_congr rfl fun k' _ => ?_))) rfl
  rw [expo_apply]

end Cert.ReferenceIdeal.RefAttn

end
-- ==== Proof.Bridge.lean ====
/-
  The kernel's result and the reference's result are one function of the two arguments.

  Fix an index `i = (b, c', h, w)` of the result [16, 512, 32, 32] and let `k = (k0, k1, k2)` be the index of
  [16, 1024, 512] with the same row-major position. Both programs reshape a [16, 1024, 512] array to the result, so
  both read that array at `k`. The kernel's array holds at `k`
      scale (k1, k2) * colForm (batch k0) (k1, k2) + x regrouped (k0, k1, k2),
  where the scale is the second argument regrouped as [1024, 512]; the reference's result is
      second argument (c', h, w) * rowForm (batch k0) (k1, k2) + first argument (b, c', h, w).
  The scale entries agree because `(k1, k2)` and `(c', h, w)` have the same position inside one batch; the residual
  entries agree because `k` and `i` have the same position; and the column form is the row form
  (`ColumnSoftmax.colForm_eq_rowForm`), the reference's row sums starting from the zero word.
-/
import proofs.«131753_j20057497272359_2_alg».proof.Proof.AttnPayload
import proofs.«131753_j20057497272359_2_alg».proof.Proof.AttnRun
import proofs.«131753_j20057497272359_2_alg».proof.Proof.RefAttn

noncomputable section

open scoped BigOperators
open Idealize.ShloMosaic Idealize.ShloMosaic.ValueIdx

namespace Cert.Bridge

open Cert.ReferenceIdeal Cert.ReferenceIdeal.Gen Cert.ReferenceIdeal.Read

variable {α : Type}

/-- The reshape to the result reads the [16, 1024, 512] array at the index with the same row-major position. -/
theorem out_reshape (y : S16x1024x512.Idx → α) (h : S16x1024x512.ShapeCasts S16x512x32x32) (i : S16x512x32x32.Idx) :
    shapeCast S16x512x32x32 y h i = y (idx_main_v14 i) :=
  shapeCast_apply y h i (idx_main_v14 i)
    (by rewrite [Shape.rowMajor_val_three, Shape.rowMajor_val_four]; have h0 : (i 0).val < 16 := (i 0).isLt; have h1 : (i 1).val < 512 := (i 1).isLt; have h2 : (i 2).val < 32 := (i 2).isLt; have h3 : (i 3).val < 32 := (i 3).isLt; show (((((i 0).val * 512 + (i 1).val) * 32 + (i 2).val) * 32 + (i 3).val) / 524288 * 1024 + ((((i 0).val * 512 + (i 1).val) * 32 + (i 2).val) * 32 + (i 3).val) / 512 % 1024) * 512 + ((((i 0).val * 512 + (i 1).val) * 32 + (i 2).val) * 32 + (i 3).val) % 512 = (((i 0).val * 512 + (i 1).val) * 32 + (i 2).val) * 32 + (i 3).val; omega)

/-- The scale regrouped as [1024, 512], at the last two coordinates of `k`, is the scale at the last three of `i`. -/
theorem scale_at (a1 : S512x32x32.Idx → α) (h : S512x32x32.ShapeCasts (⟨2, ![1024, 512]⟩ : Shape)) (i : S16x512x32x32.Idx) :
    shapeCast (⟨2, ![1024, 512]⟩ : Shape) a1 h (ix2 (idx_main_v14 i 1) (idx_main_v14 i 2))
      = a1 (idx_main_v15 (idx_main_v16 i)) :=
  shapeCast_apply a1 h _ (idx_main_v15 (idx_main_v16 i))
    (by rewrite [Shape.rowMajor_val_three, Shape.rowMajor_val_two]; have h0 : (i 0).val < 16 := (i 0).isLt; have h1 : (i 1).val < 512 := (i 1).isLt; have h2 : (i 2).val < 32 := (i 2).isLt; have h3 : (i 3).val < 32 := (i 3).isLt; show ((i 1).val * 32 + (i 2).val) * 32 + (i 3).val = (((((i 0).val * 512 + (i 1).val) * 32 + (i 2).val) * 32 + (i 3).val) / 512 % 1024) * 512 + ((((i 0).val * 512 + (i 1).val) * 32 + (i 2).val) * 32 + (i 3).val) % 512; omega)

/-- The first argument regrouped as [16, 1024, 512], at `k`, is the first argument at `i`. -/
theorem resid_at (a0 : S16x512x32x32.Idx → α) (h : S16x512x32x32.ShapeCasts S16x1024x512) (i : S16x512x32x32.Idx) :
    shapeCast S16x1024x512 a0 h (ix3 (idx_main_v14 i 0) (idx_main_v14 i 1) (idx_main_v14 i 2)) = a0 i :=
  shapeCast_apply a0 h _ i
    (by rewrite [Shape.rowMajor_val_four, Shape.rowMajor_val_three]; have h0 : (i 0).val < 16 := (i 0).isLt; have h1 : (i 1).val < 512 := (i 1).isLt; have h2 : (i 2).val < 32 := (i 2).isLt; have h3 : (i 3).val < 32 := (i 3).isLt; show (((i 0).val * 512 + (i 1).val) * 32 + (i 2).val) * 32 + (i 3).val = (((((i 0).val * 512 + (i 1).val) * 32 + (i 2).val) * 32 + (i 3).val) / 524288 * 1024 + ((((i 0).val * 512 + (i 1).val) * 32 + (i 2).val) * 32 + (i 3).val) / 512 % 1024) * 512 + ((((i 0).val * 512 + (i 1).val) * 32 + (i 2).val) * 32 + (i 3).val) % 512; omega)

/-- The kernel's result at `i`, written over batch `k0`'s matrix as the reference names it. -/
theorem kernel_at (a0 : S16x512x32x32.Idx → Elt Ideal .f32) (a1 : S512x32x32.Idx → Elt Ideal .f32) (i : S16x512x32x32.Idx) :
    Cert.KernelIdeal.AttnRun.kernelResult a0 a1 i
      = shapeCast (⟨2, ![1024, 512]⟩ : Shape) a1 Cert.KernelIdeal.Gen.shapeCasts_S512x32x32_S1024x512 (ix2 (idx_main_v14 i 1) (idx_main_v14 i 2))
          * ColumnSoftmax.colForm (RefAttn.rows a0 (idx_main_v14 i 0)) (Ideal.ofBits .f32 0xFF800000#32) Ideal.exp Ideal.div
              (idx_main_v14 i 1) (idx_main_v14 i 2)
        + shapeCast S16x1024x512 a0 Cert.KernelIdeal.Gen.shapeCasts_S16x512x32x32_S16x1024x512
            (ix3 (idx_main_v14 i 0) (idx_main_v14 i 1) (idx_main_v14 i 2)) := by
  unfold Cert.KernelIdeal.AttnRun.kernelResult
  rw [out_reshape]
  exact Cert.KernelIdeal.AttnBody.pay_apply _ _ _ 0 (idx_main_v14 i 1) (idx_main_v14 i 2)

/-- The reference's second product at any index `k` of [16, 1024, 512]: the row form for batch `k 0`. -/
theorem ref_at (a0 : S16x512x32x32.Idx → Elt Ideal .f32) (k : S16x1024x512.Idx) :
    val_main_v13 (F := Ideal) a0 k
      = ColumnSoftmax.rowForm (RefAttn.rows a0 (k 0)) (Ideal.ofBits .f32 0xFF800000#32) (Ideal.ofBits .f32 0x00000000#32)
          Ideal.exp Ideal.div (k 1) (k 2) := by
  obtain ⟨b, j, c, rfl⟩ : ∃ (b : Fin 16) (j : Fin 1024) (c : Fin 512), k = ix3 b j c := ⟨k 0, k 1, k 2, eq_ix3 k⟩
  exact RefAttn.out_apply a0 b j c

/-- The two results are one function. -/
theorem result_eq (a0 : S16x512x32x32.Idx → Elt Ideal .f32) (a1 : S512x32x32.Idx → Elt Ideal .f32) :
    Cert.KernelIdeal.AttnRun.kernelResult a0 a1 = val_main_v18 (F := Ideal) a0 a1 := by
  funext i
  rw [val_main_v18_apply, val_main_v17_apply, val_main_v16_apply, val_main_v15_apply, val_main_v14_apply, ref_at,
    kernel_at]
  have hscale := scale_at a1 Cert.KernelIdeal.Gen.shapeCasts_S512x32x32_S1024x512 i
  have hresid := resid_at a0 Cert.KernelIdeal.Gen.shapeCasts_S16x512x32x32_S16x1024x512 i
  have hlaw := ColumnSoftmax.colForm_eq_rowForm (RefAttn.rows a0 (idx_main_v14 i 0)) (Ideal.ofBits .f32 0xFF800000#32)
    (Ideal.ofBits .f32 0x00000000#32) Ideal.ofBits_zero_f32 Ideal.exp Ideal.div (idx_main_v14 i 1) (idx_main_v14 i 2)
  exact congrArg₂ (· + ·) (congrArg₂ (· * ·) hscale hlaw) hresid

end Cert.Bridge

end
-- ==== Proof.lean ====
/- The proof of `Cert.Claim` (proofs.«131753_j20057497272359_2_alg».proof.Defs).

   The kernel program computes, for each of sixteen batches, a channel self-attention with a fused residual: with
   `x` the batch's 512 by 1024 matrix (channels by positions) and `E = xᵀ x` the Gram matrix of its columns, it
   takes the softmax of `E` DOWN each column, multiplies by `xᵀ`, scales entrywise and adds the input regrouped.
   The reference takes the softmax of `E` ALONG each row and contracts the row index with `x`. Over the extended
   reals `E` is symmetric, because a product of two extended reals commutes, so column `k` of `E` is row `k`:
   the two maxima, the two sums and the two contractions agree term by term (Proof/LibColumnSoftmax.lean). No
   finiteness of the inputs is used. The rest is bookkeeping of positions: what the body stores entry by entry
   (Proof/AttnPayload.lean), the array the region leaves and the program's result (Proof/AttnArray.lean,
   Proof/AttnRun.lean), the reference's stages entry by entry (Proof/RefAttn.lean), and the reshapes on both sides
   reading one row-major position (Proof/Bridge.lean). The three frames are the generated frame runs; the
   idealization rewrote no operation, so there is nothing to preserve. -/
import proofs.«131753_j20057497272359_2_alg».proof.Defs
import proofs.«131753_j20057497272359_2_alg».proof.Proof.Gen.Kernel
import proofs.«131753_j20057497272359_2_alg».proof.Proof.Gen.Kernel.Skeleton
import proofs.«131753_j20057497272359_2_alg».proof.Proof.Gen.Kernel.Launch
import proofs.«131753_j20057497272359_2_alg».proof.Proof.Gen.Kernel.Points
import proofs.«131753_j20057497272359_2_alg».proof.Proof.Gen.Kernel.Frame
import proofs.«131753_j20057497272359_2_alg».proof.Proof.Gen.KernelIdeal
import proofs.«131753_j20057497272359_2_alg».proof.Proof.Gen.KernelIdeal.Skeleton
import proofs.«131753_j20057497272359_2_alg».proof.Proof.Gen.KernelIdeal.Launch
import proofs.«131753_j20057497272359_2_alg».proof.Proof.Gen.KernelIdeal.Points
import proofs.«131753_j20057497272359_2_alg».proof.Proof.Gen.KernelIdeal.Frame
import proofs.«131753_j20057497272359_2_alg».proof.Proof.Gen.ReferenceIdeal
import proofs.«131753_j20057497272359_2_alg».proof.Proof.Gen.ReferenceIdeal.Run
import proofs.«131753_j20057497272359_2_alg».proof.Proof.Gen.ReferenceIdeal.Read
import proofs.«131753_j20057497272359_2_alg».proof.Proof.Gen.Pre_finite_inputs
import proofs.«131753_j20057497272359_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with `kernelResult` of the arguments: the kernel by its run, the
    reference because its last stage is that function (`Cert.Bridge.result_eq`). -/
theorem algebraic : Cert.algebraic_KernelIdeal_ReferenceIdeal := by
  intro m ρ m' ρ' _ hagree
  refine ⟨fun c => Cert.KernelIdeal.AttnRun.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.AttnRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2]
  exact (Cert.Bridge.result_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
